-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x1024, .bf16⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x1024_S8192_d1 : S8192x1024.ReducesTo [1] S8192
  h_S_ : 0 < S_.numel
  shapeCasts_S8192_S8192x1 : S8192.ShapeCasts S8192x1
  shapeCasts_S8192_S1x8192 : S8192.ShapeCasts S1x8192
  bitsLt_bf16_f32 : FTy.bits .bf16 < FTy.bits .f32
  bcast_S_S8192x1024 : S_.BroadcastsInDim S8192x1024 (![] : Fin 0 → Fin S8192x1024.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v7) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S1024x8192 : Shape := ⟨2, ![1024, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S8192, .f32⟩
  | .hbm, ⟨4, _⟩ => ⟨S1024x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  transposes_S8192x1024_S1024x8192_1_0 : S8192x1024.Transposes [1, 0] S1024x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x1024_S1024x8192_S8192x8192_1_0_0_1_n_n_wf : DotDims.WF S8192x1024 S1024x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.Distance.lean ====
/-
  The mathematics both programs share. For a matrix `x` of extended reals (rows `ι`, columns `κ`) write
  `‖x_r‖²` for `0 + ∑ k, x r k * x r k`. One program computes, at the entry (r, c),

      -(√ (max ((‖x_r‖² + ‖x_c‖²) - 2 * ∑ k, x r k * x c k) 0))                                   (`ofGram`)

  and the other doubles the left factor BEFORE the contraction, overwrites the diagonal of the clamped
  squared distance by zero, and negates by subtracting from zero:

      0 - √ (if r = c then 0 else max ((‖x_r‖² + ‖x_c‖²) - ∑ k, (2 * x r k) * x c k) 0)           (`masked`)

  On the extended reals the two differ in general: moving the factor 2 across the sum is distributivity, which fails
  at infinities, and on the diagonal `(s + s) - 2 * s` is `0` only for a finite `s`. When every entry of `x` is a
  real number both are the same real computation: the sums are real sums, `∑ (2 a) b = 2 ∑ a b`, and on the diagonal
  `(s + s) - 2 s = 0`, whose clamp at zero is zero (`masked_eq_ofGram`).
-/
import Idealize.ShloMosaic.PureOps.Ideal
import Idealize.ShloMosaic.PureOps.Ideal.Laws
import Idealize.ShloMosaic.Lib.ValueIdx

noncomputable section

namespace Cert.Distance

open Idealize.ShloMosaic

/-- The word of `2.0` denotes the real number 2. -/
theorem ofBits_two : Ideal.ofBits .f32 0x40000000#32 = ((2 : ℝ) : EReal) := by
  simp [Ideal.ofBits, Ideal.ieee, -EReal.coe_mul]; norm_num

/-- The coercion of the reals into the extended reals commutes with finite sums. -/
theorem coe_sum {κ : Type} (s : Finset κ) (a : κ → ℝ) : ((∑ k ∈ s, a k : ℝ) : EReal) = ∑ k ∈ s, (a k : EReal) := by
  classical
  induction s using Finset.induction_on with
  | empty => simp
  | insert k s hk ih => rw [Finset.sum_insert hk, Finset.sum_insert hk, EReal.coe_add, ih]

variable {ι κ : Type} [Fintype κ] [DecidableEq ι]

/-- Row `r`'s squared norm, as both programs compute it: the zero word plus the sum of the squares. -/
def sqNorm (x : ι → κ → EReal) (r : ι) : EReal :=
  Ideal.ofBits .f32 0x00000000#32 + ∑ k, x r k * x r k

/-- The negated distance from the Gram matrix: `-√ max(‖x_r‖² + ‖x_c‖² - 2 ⟨x_r, x_c⟩, 0)`. -/
def ofGram (x : ι → κ → EReal) (r c : ι) : EReal :=
  -(Ideal.sqrt (max ((sqNorm x r + sqNorm x c) - Ideal.ofBits .f32 0x40000000#32 * ∑ k, x r k * x c k)
    (Ideal.ofBits .f32 0x00000000#32)))

/-- The same with the left factor doubled inside the contraction, the diagonal set to zero before the root, and
    the sign changed by subtracting from zero. -/
def masked (x : ι → κ → EReal) (r c : ι) : EReal :=
  Ideal.ofBits .f32 0x00000000#32 - Ideal.sqrt (if r = c then Ideal.ofBits .f32 0x00000000#32 else
    max ((sqNorm x r + sqNorm x c) - ∑ k, (Ideal.ofBits .f32 0x40000000#32 * x r k) * x c k)
      (Ideal.ofBits .f32 0x00000000#32))

/-- On a matrix of real numbers the two agree at every entry. -/
theorem masked_eq_ofGram (x : ι → κ → EReal) (hx : ∀ r k, ∃ a : ℝ, x r k = a) (r c : ι) :
    masked x r c = ofGram x r c := by
  choose a ha using hx
  obtain rfl : x = fun r k => (a r k : EReal) := funext fun r => funext fun k => ha r k
  -- the inner products are real sums
  have hdot : ∀ r c : ι, ∑ k, (a r k : EReal) * (a c k : EReal) = ((∑ k, a r k * a c k : ℝ) : EReal) := fun r c => by
    rw [coe_sum]; exact Finset.sum_congr rfl fun k _ => (EReal.coe_mul _ _).symm
  -- doubling the left factor doubles the inner product
  have hdot2 : ∑ k, (((2 : ℝ) : EReal) * (a r k : EReal)) * (a c k : EReal)
      = ((2 : ℝ) : EReal) * ((∑ k, a r k * a c k : ℝ) : EReal) := by
    rw [← EReal.coe_mul, Finset.mul_sum, coe_sum]
    refine Finset.sum_congr rfl fun k _ => ?_
    rw [← EReal.coe_mul, ← EReal.coe_mul, mul_assoc]
  unfold masked ofGram sqNorm
  simp only [Ideal.ofBits_zero_f32, ofBits_two, zero_add, zero_sub, hdot, hdot2]
  by_cases h : r = c
  · subst h
    rw [if_pos rfl]
    -- on the diagonal the clamped squared distance is zero
    have hz : ((∑ k, a r k * a r k : ℝ) : EReal) + ((∑ k, a r k * a r k : ℝ) : EReal)
        - ((2 : ℝ) : EReal) * ((∑ k, a r k * a r k : ℝ) : EReal) = 0 := by
      rw [← EReal.coe_add, ← EReal.coe_mul, ← EReal.coe_sub, ← EReal.coe_zero]
      exact congrArg _ (by ring)
    rw [hz, max_self]
  · rw [if_neg h]

/-! ## The two whole arrays, over the literal shapes -/

/-- An [8192, 1024] array as a matrix: entry (r, k). -/
def rows (x : (⟨2, ![8192, 1024]⟩ : Shape).Idx → EReal) : Fin 8192 → Fin 1024 → EReal :=
  fun r k => x (ValueIdx.ix2 r k)

/-- The [8192, 8192] array of negated distances from the Gram matrix. -/
def ofGramArr (x : (⟨2, ![8192, 1024]⟩ : Shape).Idx → EReal) : (⟨2, ![8192, 8192]⟩ : Shape).Idx → EReal :=
  fun i => ofGram (rows x) (i 0) (i 1)

/-- The same array by the masked form. -/
def maskedArr (x : (⟨2, ![8192, 1024]⟩ : Shape).Idx → EReal) : (⟨2, ![8192, 8192]⟩ : Shape).Idx → EReal :=
  fun i => masked (rows x) (i 0) (i 1)

theorem ofGramArr_ix2 (x : (⟨2, ![8192, 1024]⟩ : Shape).Idx → EReal) (R C : Fin 8192) :
    ofGramArr x (ValueIdx.ix2 R C) = ofGram (rows x) R C := rfl

theorem maskedArr_ix2 (x : (⟨2, ![8192, 1024]⟩ : Shape).Idx → EReal) (R C : Fin 8192) :
    maskedArr x (ValueIdx.ix2 R C) = masked (rows x) R C := rfl

/-- On an array of real numbers the two arrays are one. -/
theorem maskedArr_eq_ofGramArr (x : (⟨2, ![8192, 1024]⟩ : Shape).Idx → EReal) (hx : ∀ i, ∃ a : ℝ, x i = a) :
    maskedArr x = ofGramArr x :=
  funext fun i => masked_eq_ofGram (rows x) (fun r k => hx (ValueIdx.ix2 r k)) (i 0) (i 1)

end Cert.Distance

end
-- ==== Proof.Finite.lean ====
/-
  The precondition read back. It states that the conjunction, over every entry of the argument array, of the
  comparisons `|x i| < +∞` is true. A conjunction that is true has every conjunct true; `|x i| = max (x i) (-(x i))` is
  below `+∞` only if `x i` is neither `+∞` nor `-∞`; and an extended real that is neither is a real number.
-/
import proofs.«154465_j41790031790867_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

/-- The shape with no axis has one index. -/
instance : Subsingleton S_.Idx := ⟨fun _ _ => funext fun d => d.elim0⟩

/-- The word of the positive infinity denotes `+∞`. -/
theorem ofBits_inf : Ideal.ofBits .f32 0x7F800000#32 = (⊤ : EReal) := by
  simp [Ideal.ofBits, Ideal.ieee]

/-- An extended real whose absolute value is below `+∞` is a real number. -/
theorem real_of_abs_lt_top (y : EReal) (h : max y (-y) < ⊤) : ∃ a : ℝ, y = a := by
  induction y using EReal.rec with
  | bot => simp at h
  | coe a => exact ⟨a, rfl⟩
  | top => simp at h

/-- Under the precondition every entry of the argument array is a real number. -/
theorem real_of_pre (x : FVec Ideal S8192x1024 .f32) (h : fn (F := Ideal) x = fun _ => 1#1) (i : S8192x1024.Idx) :
    ∃ a : ℝ, x i = a := by
  have h0 := congrFun h ValueIdx.ix0
  dsimp only [fn] at h0
  have hi := Host.reduce_andi_all _ _ _ _ _ h0 i
  have hb : BitVec.ofBool (decide (max (x i) (-(x i)) < Ideal.ofBits .f32 0x7F800000#32)) = 1#1 := hi
  have hd : decide (max (x i) (-(x i)) < Ideal.ofBits .f32 0x7F800000#32) = true := by
    cases hdec : decide (max (x i) (-(x i)) < Ideal.ofBits .f32 0x7F800000#32) with
    | true => rfl
    | false => rw [hdec] at hb; exact absurd hb (by decide)
  have hlt : max (x i) (-(x i)) < Ideal.ofBits .f32 0x7F800000#32 := of_decide_eq_true hd
  rw [ofBits_inf] at hlt
  exact real_of_abs_lt_top (x i) hlt

end Cert.Pre_finite_inputs.Finite

end
-- ==== Proof.RefValue.lean ====
/-
  The reference read at an index. Its nineteen host operations compose to

      -(√ (max ((‖x_R‖² + ‖x_C‖²) - 2 * ∑ k, x R k * x C k) 0))        at the entry (R, C),

  that is `Distance.ofGramArr` of the argument array: the row sums of squares are broadcast down the rows and along
  the columns, the Gram matrix is the contraction of the argument with its own transpose, and the rest is pointwise.
  Each operation is read at an index by its generated lemma; what is written here is only that the composed index
  functions are the matrix coordinates (R, k) and (C, k).
-/
import proofs.«154465_j41790031790867_2_alg».proof.Proof.Gen.ReferenceIdeal.Run
import proofs.«154465_j41790031790867_2_alg».proof.Proof.Gen.ReferenceIdeal.Read
import proofs.«154465_j41790031790867_2_alg».proof.Proof.Distance

noncomputable section

namespace Cert.ReferenceIdeal.RefValue

open Cert.ReferenceIdeal Cert.ReferenceIdeal.Read Idealize.ShloMosaic Idealize.ShloMosaic.ValueIdx

/-- The row whose squares are summed for the column broadcast is row `R`. -/
theorem idx_sq_row (R C : Fin 8192) (k : Fin 1024) :
    idx_main_v1 (idx_main_v4 (idx_main_v6 (ix2 R C))) k = ix2 R k :=
  funext fun a => Fin.ext (by match a with | ⟨0, _⟩ => rfl | ⟨1, _⟩ => rfl)

/-- The row whose squares are summed for the row broadcast is row `C`. -/
theorem idx_sq_col (R C : Fin 8192) (k : Fin 1024) :
    idx_main_v1 (idx_main_v5 (idx_main_v7 (ix2 R C))) k = ix2 C k :=
  funext fun a => Fin.ext (by match a with | ⟨0, _⟩ => rfl | ⟨1, _⟩ => rfl)

/-- The contraction's left factor at (R, C), k is the entry (R, k). -/
theorem idx_gram_left (R C : Fin 8192) (k : Fin 1024) : lidx_main_v3 (ix2 R C) k = ix2 R k :=
  funext fun a => Fin.ext (by match a with | ⟨0, _⟩ => rfl | ⟨1, _⟩ => rfl)

/-- Its right factor, read through the transpose, is the entry (C, k). -/
theorem idx_gram_right (R C : Fin 8192) (k : Fin 1024) : idx_main_v2 (ridx_main_v3 (ix2 R C) k) = ix2 C k :=
  funext fun a => Fin.ext (by match a with | ⟨0, _⟩ => rfl | ⟨1, _⟩ => rfl)

/-- The reference's result at the entry (R, C). -/
theorem result_apply (x : (⟨S8192x1024, .f32⟩ : BufTy).Contents (Elt Ideal)) (R C : Fin 8192) :
    val_main_v15 (F := Ideal) x (ix2 R C) = Cert.Distance.ofGram (Cert.Distance.rows x) R C := by
  rw [val_main_v15_apply, val_main_v14_apply, val_main_v13_apply, val_main_v11_apply, val_main_v8_apply,
    val_main_v6_apply, val_main_v4_apply, val_main_v1_apply, val_main_v7_apply, val_main_v5_apply, val_main_v1_apply,
    val_main_v10_apply, val_main_v9_apply, val_main_v3_apply, val_main_v12_apply]
  simp only [val_main_v0_apply, val_main_v2_apply, val_main_cst_apply, val_main_cst_0_apply, val_main_cst_1_apply,
    idx_sq_row, idx_sq_col, idx_gram_left, idx_gram_right,
    Ideal.hostNegf_def, Ideal.negf_def, Ideal.hostUnary_sqrt_def, Ideal.maximumf_def, Ideal.subf_def, Ideal.addf_def,
    Ideal.mulf_def, Ideal.ofBits_def]
  rfl

/-- The reference's result array is the array of negated distances from the Gram matrix. -/
theorem result_eq (x : (⟨S8192x1024, .f32⟩ : BufTy).Contents (Elt Ideal)) :
    val_main_v15 (F := Ideal) x = Cert.Distance.ofGramArr x := by
  funext i
  obtain ⟨R, C, rfl⟩ : ∃ (R C : Fin 8192), i = ix2 R C := ⟨i 0, i 1, eq_ix2 i⟩
  exact result_apply x R C

end Cert.ReferenceIdeal.RefValue

end
-- ==== Proof.Body.lean ====
/-
  The kernel body's arithmetic at one entry of its [1024, 1024] output block. At the grid point (g₀, g₁) and the local
  entry (p, q) the stored value is

      0 - √ (if g₀ * 1024 + p = g₁ * 1024 + q then 0 else max ((c p + r q) - ∑ k, a p k * b q k) 0)

  where `a`, `b` are the two loaded [1024, 1024] blocks (the second enters the matrix product transposed, so the
  product contracts the columns of both), `c` is the loaded [1024, 1] column and `r` the loaded [1, 1024] row. The
  comparison is between two 32-bit counters, `p + g₀ * 1024` and `q + g₁ * 1024`; neither wraps, the grid having
  eight points on each axis, so it is the comparison of the natural numbers.
-/
import proofs.«154465_j41790031790867_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- A [1024, 1] column broadcast along the rows of a [1024, 1024] block reads the column's entry of that row. -/
theorem bcast_col {α : Type} (v : S1024x1.Idx → α) (p q : Fin 1024) :
    broadcastTo S1024x1024 v broadcasts_S1024x1_S1024x1024 (ix2 p q) = v (ix2 p 0) :=
  broadcastTo_apply v _ (ix2 p q) (ix2 p 0) (fun a => match a with
    | ⟨0, _⟩ => by show p.val = if (1024 : Nat) = 1 then 0 else p.val; rw [if_neg (by decide)]
    | ⟨1, _⟩ => by show (0 : Nat) = if (1 : Nat) = 1 then 0 else q.val; rw [if_pos rfl])

/-- A [1, 1024] row broadcast down the columns reads the row's entry of that column. -/
theorem bcast_row {α : Type} (v : S1x1024.Idx → α) (p q : Fin 1024) :
    broadcastTo S1024x1024 v broadcasts_S1x1024_S1024x1024 (ix2 p q) = v (ix2 0 q) :=
  broadcastTo_apply v _ (ix2 p q) (ix2 0 q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

local notation "D" => dot_S1024x1024_S1024x1024_S1024x1024_1_0_0_1_n_n

theorem lhs_0 (i : S1024x1024.Idx) (κ : (D).contr.Idx) : ((D).lhsIdx i κ 0).val = (i 0).val := by
  unfold DotDims.lhsIdx
  rw [dif_neg (show ¬(0 : Fin S1024x1024.rank) ∈ (D).lhsBatch by decide),
    dif_pos (show (0 : Fin S1024x1024.rank) ∈ (D).lhsNonContracting by decide)]
  rfl

theorem lhs_1 (i : S1024x1024.Idx) (κ : (D).contr.Idx) : ((D).lhsIdx i κ 1).val = (κ ⟨0, by decide⟩).val :=
  (D).lhsIdx_val_of_single rfl i κ

theorem rhs_0 (i : S1024x1024.Idx) (κ : (D).contr.Idx) : ((D).rhsIdx i κ 0).val = (κ ⟨0, by decide⟩).val :=
  (D).rhsIdx_val_of_single rfl i κ

theorem rhs_1 (i : S1024x1024.Idx) (κ : (D).contr.Idx) : ((D).rhsIdx i κ 1).val = (i 1).val := by
  unfold DotDims.rhsIdx
  rw [dif_neg (show ¬(1 : Fin S1024x1024.rank) ∈ (D).rhsBatch by decide),
    dif_pos (show (1 : Fin S1024x1024.rank) ∈ (D).rhsNonContracting by decide)]
  rfl

/-- The matrix product of a block with the transpose of another, into a zero accumulator, at the entry (p, q): the
    sum over the 1024 columns of the products of row `p` of the first and row `q` of the second. -/
theorem gram_apply (a b : FVec Ideal S1024x1024 .bf16) (p q : Fin 1024) :
    matmul (F := Ideal) (D) none a (transpose S1024x1024 [1, 0] b transposes_S1024x1024_p1_0_S1024x1024)
        (constant (F := Ideal) S1024x1024 .f32 0x00000000#32) (ix2 p q)
      = ∑ k : Fin 1024, a (ix2 p k) * b (ix2 q k) := by
  simp only [matmul]
  rw [Ideal.matmul_constant_zero_apply, ← Equiv.sum_comp (contrEquiv1 (D) 1024 rfl rfl).symm]
  refine Finset.sum_congr rfl fun k _ => ?_
  have hk := contrEquiv1_symm_val (D) 1024 rfl rfl k
  have el : (D).lhsIdx (ix2 p q) ((contrEquiv1 (D) 1024 rfl rfl).symm k) = ix2 p k := funext fun ax => Fin.ext (by
    match ax with
    | ⟨0, _⟩ => exact lhs_0 _ _
    | ⟨1, _⟩ => exact (lhs_1 _ _).trans hk)
  rw [el]
  refine congrArg (a (ix2 p k) * ·) ?_
  exact transpose_apply [1, 0] b transposes_S1024x1024_p1_0_S1024x1024 _ (ix2 q k) (fun ax => match ax with
    | ⟨0, _⟩ => ((rhs_0 _ _).trans hk).symm
    | ⟨1, _⟩ => by show q.val = _; exact (rhs_1 (ix2 p q) _).symm)

/-- The two 32-bit counters are equal exactly when the natural numbers are: `g * 1024 + p` stays below `2 ^ 32`. -/
theorem counters_eq_iff (g₀ g₁ p q : Nat) (hg₀ : g₀ < 8) (hg₁ : g₁ < 8) (hp : p < 1024) (hq : q < 1024) :
    BitVec.ofNat 32 (0 * 1024 + p) + BitVec.ofNat 32 g₀ * 1024#32
        = BitVec.ofNat 32 (0 * 1024 + q) + BitVec.ofNat 32 g₁ * 1024#32
      ↔ g₀ * 1024 + p = g₁ * 1024 + q := by
  rw [← BitVec.toNat_inj]
  simp only [BitVec.toNat_add, BitVec.toNat_mul, BitVec.toNat_ofNat]
  omega

/-- THE STORED VALUE at the local entry (p, q) of the block at the grid point `i`. -/
theorem payload_apply (i : grid0.Coords) (v0 v2 : Vec Ideal S1024x1024 .bf16) (v6 : Vec Ideal S1024x1 .f32)
    (v8 : Vec Ideal S1x1024 .f32) (p q : Fin 1024) :
    k0_pay1 (F := Ideal) i v0 v2 v6 v8 (ix2 p q)
      = Ideal.ofBits .f32 0x00000000#32 - Ideal.sqrt (if (i 0).val * 1024 + p.val = (i 1).val * 1024 + q.val
          then Ideal.ofBits .f32 0x00000000#32
          else max ((v6 (ix2 p 0) + v8 (ix2 0 q)) - ∑ k : Fin 1024, v0 (ix2 p k) * v2 (ix2 q k))
            (Ideal.ofBits .f32 0x00000000#32)) := by
  unfold k0_pay1
  simp only [subf_apply, broadcast_apply, select_apply, maximumf_apply, addf_apply, sqrt, shapeCast_self,
    bcast_col, bcast_row]
  rw [gram_apply v0 v2 p q]
  have h0 : (i 0).val < 8 := (i 0).isLt
  have h1 : (i 1).val < 8 := (i 1).isLt
  have hc : cmpi CmpIPredicate.eq
      (broadcastTo S1024x1024 (addi (iota Kind.tc S1024x1 32 [0] iota_S1024x1_d0_w32)
        (broadcast S1024x1 (Scalar.muli (BitVec.ofNat 32 (i 0).val) 1024#32))) broadcasts_S1024x1_S1024x1024)
      (broadcastTo S1024x1024 (addi (iota Kind.tc S1x1024 32 [1] iota_S1x1024_d1_w32)
        (broadcast S1x1024 (Scalar.muli (BitVec.ofNat 32 (i 1).val) 1024#32))) broadcasts_S1x1024_S1024x1024)
      (ix2 p q)
      = BitVec.ofBool (decide ((i 0).val * 1024 + p.val = (i 1).val * 1024 + q.val)) := by
    show IntOp.cmpi .eq _ _ = _
    rw [bcast_col, bcast_row]
    show BitVec.ofBool (BitVec.ofNat 32 (0 * 1024 + p.val) + BitVec.ofNat 32 (i 0).val * 1024#32
      == BitVec.ofNat 32 (0 * 1024 + q.val) + BitVec.ofNat 32 (i 1).val * 1024#32) = _
    refine congrArg BitVec.ofBool ?_
    rw [Bool.eq_iff_iff, beq_iff_eq, decide_eq_true_iff]
    exact counters_eq_iff _ _ _ _ h0 h1 p.isLt q.isLt
  rw [hc]
  by_cases h : (i 0).val * 1024 + p.val = (i 1).val * 1024 + q.val
  · rw [if_pos h, decide_eq_true h]; rfl
  · rw [if_neg h, decide_eq_false h]; rfl

end Cert.KernelIdeal.Body

end
-- ==== Proof.Staged.lean ====
/-
  What the kernel's four input windows stage, as functions of the argument array `x` (f32[8192, 1024]). Before the
  call the host computes, from `x` alone: the array doubled entry by entry (the first window's), `x` itself (the
  second's) — both changes of float format, which are the identity on the extended reals —, and the row sums of squares
  `0 + ∑ k, x r k * x r k`, reshaped once to a column [8192, 1] (the third window's) and once to a row [1, 8192] (the
  fourth's).
-/
import proofs.«154465_j41790031790867_2_alg».proof.Proof.KernelIdealFrame
import proofs.«154465_j41790031790867_2_alg».proof.Proof.Distance
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.Staged

open Cert.KernelIdeal Cert.KernelIdeal.Gen Cert.KernelIdeal.GenP Idealize.ShloMosaic Idealize.ShloMosaic.TcCoe
open Idealize.ShloMosaic.ValueIdx Idealize.SL.Sem Idealize.ShloMosaic.StableHlo

variable (m : (ℓ : Loc nD τ sig) → Buf (Elt Ideal) ℓ)

/-- The argument array on core `c`, as launched. -/
abbrev X (c : Dev nD) : S8192x1024.Idx → EReal := m ((c : Thread nD τ).loc main_arg0)

/-- The host's sum over the columns of the entrywise square, at row `R`: row `R`'s squared norm. -/
theorem sumsq_apply (x : FVec Ideal S8192x1024 .f32) (R : Fin 8192) :
    Host.reduceAdd (F := Ideal) (mulf x x) (constant (F := Ideal) S_ .f32 0x00000000#32)
        reducesTo_S8192x1024_S8192_d1 h_S_ (ix1 R)
      = Cert.Distance.sqNorm (Cert.Distance.rows x) R := by
  simp only [Host.reduceAdd, Ideal.hostReduceAdd_def]
  rw [Ideal.hostReduceAdd_single reducesTo_S8192x1024_S8192_d1 (by decide)]
  unfold Cert.Distance.sqNorm Cert.Distance.rows
  refine congrArg₂ (· + ·) rfl (Finset.sum_congr rfl fun k _ => ?_)
  have e : ∀ j : S8192x1024.Idx, (j 0).val = R.val → (j 1).val = k.val → mulf x x j = x (ix2 R k) * x (ix2 R k) := by
    intro j h0 h1
    have : j = ix2 R k := funext fun a => Fin.ext (by match a with | ⟨0, _⟩ => exact h0 | ⟨1, _⟩ => exact h1)
    rw [this]; rfl
  exact e _ rfl rfl

/-- The first window's array: the argument doubled. -/
theorem doubled_apply (c : Dev nD) (R : Fin 8192) (k : Fin 1024) :
    (V m c main_v7 : S8192x1024.Idx → EReal) (ix2 R k) = Ideal.ofBits .f32 0x40000000#32 * X m c (ix2 R k) := by
  have e : (V m c main_v7 : S8192x1024.Idx → EReal)
      = truncf (F := Ideal) .bf16 (mulf (broadcastInDim S8192x1024 ![] bcast_S_S8192x1024
          (constant (F := Ideal) S_ .f32 0x40000000#32)) (X m c)) bitsLt_bf16_f32 := by
    dsimp only [V, hostOps0]; after_results
  rw [e]; rfl

/-- The second window's array: the argument. -/
theorem plain_apply (c : Dev nD) (R : Fin 8192) (k : Fin 1024) :
    (V m c main_v4 : S8192x1024.Idx → EReal) (ix2 R k) = X m c (ix2 R k) := by
  have e : (V m c main_v4 : S8192x1024.Idx → EReal) = truncf (F := Ideal) .bf16 (X m c) bitsLt_bf16_f32 := by
    dsimp only [V, hostOps0]; after_results
  rw [e]; rfl

/-- The third window's array, a column: at (R, 0) row `R`'s squared norm. -/
theorem col_apply (c : Dev nD) (R : Fin 8192) :
    (V m c main_v2 : S8192x1.Idx → EReal) (ix2 R 0) = Cert.Distance.sqNorm (Cert.Distance.rows (X m c)) R := by
  have e : (V m c main_v2 : S8192x1.Idx → EReal)
      = shapeCast S8192x1 (Host.reduceAdd (F := Ideal) (mulf (X m c) (X m c)) (constant (F := Ideal) S_ .f32 0x00000000#32)
          reducesTo_S8192x1024_S8192_d1 h_S_) shapeCasts_S8192_S8192x1 := by
    dsimp only [V, hostOps0]; after_results; rfl
  rw [e, shapeCast_apply _ shapeCasts_S8192_S8192x1 (ix2 R 0) (ix1 R) (by
    rw [Shape.rowMajor_val_one, Shape.rowMajor_val_two]; show R.val = R.val * 1 + 0; omega)]
  exact sumsq_apply (X m c) R

/-- The fourth window's array, a row: at (0, C) row `C`'s squared norm. -/
theorem row_apply (c : Dev nD) (C : Fin 8192) :
    (V m c main_v3 : S1x8192.Idx → EReal) (ix2 0 C) = Cert.Distance.sqNorm (Cert.Distance.rows (X m c)) C := by
  have e : (V m c main_v3 : S1x8192.Idx → EReal)
      = shapeCast S1x8192 (Host.reduceAdd (F := Ideal) (mulf (X m c) (X m c)) (constant (F := Ideal) S_ .f32 0x00000000#32)
          reducesTo_S8192x1024_S8192_d1 h_S_) shapeCasts_S8192_S1x8192 := by
    dsimp only [V, hostOps0]; after_results; rfl
  rw [e, shapeCast_apply _ shapeCasts_S8192_S1x8192 (ix2 0 C) (ix1 C) (by
    rw [Shape.rowMajor_val_one, Shape.rowMajor_val_two]; show C.val = 0 * 8192 + C.val; omega)]
  exact sumsq_apply (X m c) C

end Cert.KernelIdeal.Staged

end
-- ==== Proof.Tiling.lean ====
/-
  From blocks to the array. The grid is 8 × 8; at the point (g₀, g₁) the kernel writes the [1024, 1024] block of the
  [8192, 8192] result whose rows are g₀ * 1024 + p and whose columns are g₁ * 1024 + q. It reads rows g₀ * 1024 + p of the
  doubled argument and of the column of squared norms, and rows g₁ * 1024 + q of the argument and of the row of squared
  norms. So the counter comparison in the body is the comparison of the GLOBAL row and column numbers, and the stored
  block is the restriction to that block of ONE array, `Distance.maskedArr` of the argument. The 64 blocks tile the
  result — the point covering the entry (R, C) is (R / 1024, C / 1024) — so after the run the result IS that array.
-/
import proofs.«154465_j41790031790867_2_alg».proof.Proof.KernelIdealFrame
import proofs.«154465_j41790031790867_2_alg».proof.Proof.Body
import proofs.«154465_j41790031790867_2_alg».proof.Proof.Staged
import proofs.«154465_j41790031790867_2_alg».proof.Proof.Distance
import Idealize.ShloMosaic.Lib.Pipeline.Value
import Idealize.ShloMosaic.Lib.ValueIdx

noncomputable section

namespace Cert.KernelIdeal.Tiling

open Cert.KernelIdeal Cert.KernelIdeal.Gen Cert.KernelIdeal.GenP Idealize.ShloMosaic Idealize.ShloMosaic.TcCoe
open Idealize.ShloMosaic.ValueIdx Idealize.SL.Sem
open Idealize.ShloMosaic.Pipeline (Dat)
open Cert.KernelIdeal.Staged (X)

variable (m : (ℓ : Loc nD τ sig) → Buf (Elt Ideal) ℓ) (ρ : Dev nD → PrngReg)

/-- The global number of the local row (or column) `p` of block number `g`. -/
def glob (g : Nat) (hg : g < 8) (p : Fin 1024) : Fin 8192 := ⟨g * 1024 + p.val, by have := p.isLt; omega⟩

/-- THE STORED BLOCK, entry by entry, from what its four loaded blocks hold of the argument array `x`: the masked
    negated distance at the global entry. -/
theorem block_entry (x : S8192x1024.Idx → EReal) (i : grid0.Coords)
    (x0 x1 : Vec Ideal S1024x1024 .bf16) (x2 : Vec Ideal S1024x1 .f32) (x3 : Vec Ideal S1x1024 .f32)
    (h0 : ∀ p k : Fin 1024, x0 (ix2 p k) = Ideal.ofBits .f32 0x40000000#32 * x (ix2 (glob (i 0).val (i 0).isLt p) k))
    (h1 : ∀ q k : Fin 1024, x1 (ix2 q k) = x (ix2 (glob (i 1).val (i 1).isLt q) k))
    (h2 : ∀ p : Fin 1024, x2 (ix2 p 0) = Cert.Distance.sqNorm (Cert.Distance.rows x) (glob (i 0).val (i 0).isLt p))
    (h3 : ∀ q : Fin 1024, x3 (ix2 0 q) = Cert.Distance.sqNorm (Cert.Distance.rows x) (glob (i 1).val (i 1).isLt q))
    (p q : Fin 1024) :
    k0_pay1 (F := Ideal) i x0 x1 x2 x3 (ix2 p q)
      = Cert.Distance.maskedArr x (ix2 (glob (i 0).val (i 0).isLt p) (glob (i 1).val (i 1).isLt q)) := by
  rw [Cert.KernelIdeal.Body.payload_apply, Cert.Distance.maskedArr_ix2]
  unfold Cert.Distance.masked
  simp only [h0, h1, h2, h3]
  have hc : ((i 0).val * 1024 + p.val = (i 1).val * 1024 + q.val)
      ↔ (glob (i 0).val (i 0).isLt p = glob (i 1).val (i 1).isLt q) := by
    unfold glob; exact Fin.mk.injEq .. ▸ Iff.rfl
  by_cases h : (i 0).val * 1024 + p.val = (i 1).val * 1024 + q.val
  · rw [if_pos h, if_pos (hc.mp h)]
  · rw [if_neg h, if_neg (fun h' => h (hc.mpr h'))]; rfl

theorem zero_offsets : (![0, 0] : Fin 2 → Nat) = fun _ => 0 := funext fun a => by fin_cases a <;> rfl

/-- The printed index maps over the grid: the block numbers of the five windows at a point, from its coordinates. -/
theorem index_facts : ∀ t : Fin cfg0.N,
    win0_0.index t (0 : Fin 2) = (grid0.coords t 0).val ∧ win0_0.index t (1 : Fin 2) = 0
    ∧ win0_1.index t (0 : Fin 2) = (grid0.coords t 1).val ∧ win0_1.index t (1 : Fin 2) = 0
    ∧ win0_2.index t (0 : Fin 2) = (grid0.coords t 0).val ∧ win0_2.index t (1 : Fin 2) = 0
    ∧ win0_3.index t (0 : Fin 2) = 0 ∧ win0_3.index t (1 : Fin 2) = (grid0.coords t 1).val
    ∧ win0_4.index t (0 : Fin 2) = (grid0.coords t 0).val ∧ win0_4.index t (1 : Fin 2) = (grid0.coords t 1).val :=
  (by decide +kernel : ∀ t : Fin grid0.N, _)

/-- Every block of the result is some point's. -/
theorem index_onto : ∀ (b0 b1 : Fin 8), ∃ t : Fin cfg0.N, win0_4.index t = ![b0.val, b1.val] :=
  (by decide +kernel : ∀ (b0 b1 : Fin 8), ∃ t : Fin grid0.N, win0_4.index t = ![b0.val, b1.val])

/-- WHAT POINT `t` WRITES BACK is block `t` of the masked array of the argument. -/
theorem flushed_eq (c : Dev nD) (t : Fin cfg0.N) :
    (dats m 0 c).flushed 4 t = ((cfg0.win 4).blk t).view.read (Elt Ideal) (Cert.Distance.maskedArr (X m c)) := by
  show (cfg0.win 4).cut (grid0.coords t) ((dats m 0 c).after 4 t) = _
  rw [after0_4]
  unfold out0_4
  rw [View.canon_unit_zero zero_offsets]
  simp only [View.ld_unit_zero (S := S1024x1024) zero_offsets, View.ld_unit_zero (S := S1024x1) zero_offsets,
    View.ld_unit_zero (S := S1x1024) zero_offsets]
  obtain ⟨e00, e01, e10, e11, e20, e21, e30, e31, e40, e41⟩ := index_facts t
  have hg0 : (grid0.coords t 0).val < 8 := (grid0.coords t 0).isLt
  have hg1 : (grid0.coords t 1).val < 8 := (grid0.coords t 1).isLt
  funext j
  have hp : (j 0).val < 1024 := (j 0).isLt
  have hq : (j 1).val < 1024 := (j 1).isLt
  -- the entry's local and global coordinates
  have hj : (cfg0.win 4).xinj (grid0.coords t) j = ix2 (⟨(j 0).val, hp⟩ : Fin 1024) (⟨(j 1).val, hq⟩ : Fin 1024) :=
    funext fun a => Fin.ext (by match a with | ⟨0, _⟩ => rfl | ⟨1, _⟩ => rfl)
  have hemb : ((cfg0.win 4).blk t).view.emb j
      = ix2 (glob (grid0.coords t 0).val hg0 ⟨(j 0).val, hp⟩) (glob (grid0.coords t 1).val hg1 ⟨(j 1).val, hq⟩) :=
    funext fun a => Fin.ext (by
      match a with
      | ⟨0, _⟩ => show win0_4.index t (0 : Fin 2) * 1024 + 1 * (j 0).val = (grid0.coords t 0).val * 1024 + (j 0).val; omega
      | ⟨1, _⟩ => show win0_4.index t (1 : Fin 2) * 1024 + 1 * (j 1).val = (grid0.coords t 1).val * 1024 + (j 1).val; omega)
  show k0_pay1 (F := Ideal) (grid0.coords t) (iblk m c 0 t) (iblk m c 1 t) (iblk m c 2 t) (iblk m c 3 t)
      ((cfg0.win 4).xinj (grid0.coords t) j) = Cert.Distance.maskedArr (X m c) (((cfg0.win 4).blk t).view.emb j)
  rw [hj, hemb]
  refine block_entry (X m c) (grid0.coords t) (iblk m c 0 t) (iblk m c 1 t) (iblk m c 2 t) (iblk m c 3 t) ?_ ?_ ?_ ?_ _ _
  · -- the first window: rows g₀ * 1024 + p of the doubled argument
    intro p k
    show V m c main_v7 (((cfg0.win 0).blk t).view.emb (ix2 p k)) = _
    have e : ((cfg0.win 0).blk t).view.emb (ix2 p k) = ix2 (glob (grid0.coords t 0).val hg0 p) k :=
      funext fun a => Fin.ext (by
        match a with
        | ⟨0, _⟩ => show win0_0.index t (0 : Fin 2) * 1024 + 1 * p.val = (grid0.coords t 0).val * 1024 + p.val; omega
        | ⟨1, _⟩ => show win0_0.index t (1 : Fin 2) * 1024 + 1 * k.val = k.val; omega)
    rw [e]
    exact Cert.KernelIdeal.Staged.doubled_apply m c _ k
  · -- the second window: rows g₁ * 1024 + q of the argument
    intro q k
    show V m c main_v4 (((cfg0.win 1).blk t).view.emb (ix2 q k)) = _
    have e : ((cfg0.win 1).blk t).view.emb (ix2 q k) = ix2 (glob (grid0.coords t 1).val hg1 q) k :=
      funext fun a => Fin.ext (by
        match a with
        | ⟨0, _⟩ => show win0_1.index t (0 : Fin 2) * 1024 + 1 * q.val = (grid0.coords t 1).val * 1024 + q.val; omega
        | ⟨1, _⟩ => show win0_1.index t (1 : Fin 2) * 1024 + 1 * k.val = k.val; omega)
    rw [e]
    exact Cert.KernelIdeal.Staged.plain_apply m c _ k
  · -- the third window: rows g₀ * 1024 + p of the column of squared norms
    intro p
    show V m c main_v2 (((cfg0.win 2).blk t).view.emb (ix2 p 0)) = _
    have e : ((cfg0.win 2).blk t).view.emb (ix2 p (0 : Fin 1)) = ix2 (glob (grid0.coords t 0).val hg0 p) (0 : Fin 1) :=
      funext fun a => Fin.ext (by
        match a with
        | ⟨0, _⟩ => show win0_2.index t (0 : Fin 2) * 1024 + 1 * p.val = (grid0.coords t 0).val * 1024 + p.val; omega
        | ⟨1, _⟩ => show win0_2.index t (1 : Fin 2) * 1 + 1 * 0 = 0; omega)
    rw [e]
    exact Cert.KernelIdeal.Staged.col_apply m c _
  · -- the fourth window: columns g₁ * 1024 + q of the row of squared norms
    intro q
    show V m c main_v3 (((cfg0.win 3).blk t).view.emb (ix2 0 q)) = _
    have e : ((cfg0.win 3).blk t).view.emb (ix2 (0 : Fin 1) q) = ix2 (0 : Fin 1) (glob (grid0.coords t 1).val hg1 q) :=
      funext fun a => Fin.ext (by
        match a with
        | ⟨0, _⟩ => show win0_3.index t (0 : Fin 2) * 1 + 1 * 0 = 0; omega
        | ⟨1, _⟩ => show win0_3.index t (1 : Fin 2) * 1024 + 1 * q.val = (grid0.coords t 1).val * 1024 + q.val; omega)
    rw [e]
    exact Cert.KernelIdeal.Staged.row_apply m c _

/-- An entry of the result is in point `t`'s block iff each coordinate is in the block's range on its axis. -/
theorem mem_blk (t : Fin cfg0.N) (i : S8192x8192.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v8).slice (win0_4.rect t)).set ↔ _
  rw [View.set_slice_whole, Rect.mem_set_unit]
  exact Iff.rfl

/-- The blocks cover the result: the entry (R, C) is in the block of the point (R / 1024, C / 1024). -/
theorem cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := index_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- THE RESULT ARRAY after the run: the masked array of the argument. -/
theorem final (c : Dev nD) : (dats m 0 c).arrAt 4 cfg0.N = Cert.Distance.maskedArr (X m c) :=
  (dats m 0 c).arrAt_eq_of_cover 4 (Cert.Distance.maskedArr (X m c)) (fun t _ => flushed_eq m c t) cover

/-- The kernel's run, read: every weakly fair execution ends with the result at the masked array of the argument, the
    argument unchanged. -/
theorem run : θ_run defs (onTc (τ := τ) (main (F := Ideal))) ⟨m, fun _ => 0, ρ⟩ fun r => ∀ c : Dev nD,
      r.2.mem ((c : Thread nD τ).loc main_v8) = Cert.Distance.maskedArr (X m c)
      ∧ r.2.mem ((c : Thread nD τ).loc main_arg0) = m ((c : Thread nD τ).loc main_arg0) :=
  (θ_run defs _ _).mono (fun r h c => ⟨((h c).1 4).trans (final m c),
      ((h c).2 main_arg0 (Pipeline.mem_restRefs_of main_arg0 (by decide) (by decide))).trans (V_main_arg0 m c)⟩)
    (run_main m ρ)

end Cert.KernelIdeal.Tiling

end
-- ==== Proof.lean ====
/-
  Pairwise negated Euclidean distances of the 8192 rows of `x : f32[8192, 1024]`, two ways.

  The reference forms the row sums of squares `s_r = 0 + ∑ k, x r k * x r k` and the Gram matrix
  `g r c = ∑ k, x r k * x c k`, and returns `-√ (max ((s_r + s_c) - 2 * g r c) 0)` at the entry (r, c).

  The kernel receives `2 x`, `x`, and the sums `s` once as a column and once as a row; on an 8 × 8 grid of
  [1024, 1024] blocks it contracts rows of `2 x` against rows of `x`, forms `max ((s_r + s_c) - ∑ k, (2 * x r k) * x c k) 0`,
  overwrites it by zero where the global row number equals the global column number, and stores `0 - √ ·`.

  Over the extended reals both are exact expressions and every change of float format is the identity. Under the
  precondition every entry of `x` is a real number; then `∑ k, (2 a_k) b_k = 2 ∑ k, a_k b_k`, so the two agree off the
  diagonal, and on the diagonal `(s + s) - 2 s = 0`, so the reference's clamp is the zero the kernel writes
  (Proof/Distance.lean). The kernel's blocks tile the result (Proof/Tiling.lean, over the body's arithmetic in
  Proof/Body.lean and the staged arrays in Proof/Staged.lean); the reference is read one operation at a time
  (Proof/RefValue.lean); the precondition is read back in Proof/Finite.lean.
-/
import proofs.«154465_j41790031790867_2_alg».proof.Defs
import proofs.«154465_j41790031790867_2_alg».proof.Proof.Gen.Kernel
import proofs.«154465_j41790031790867_2_alg».proof.Proof.Gen.Kernel.Skeleton
import proofs.«154465_j41790031790867_2_alg».proof.Proof.Gen.Kernel.Launch
import proofs.«154465_j41790031790867_2_alg».proof.Proof.Gen.Kernel.Points
import proofs.«154465_j41790031790867_2_alg».proof.Proof.KernelFrame
import proofs.«154465_j41790031790867_2_alg».proof.Proof.Gen.KernelIdeal
import proofs.«154465_j41790031790867_2_alg».proof.Proof.Gen.KernelIdeal.Skeleton
import proofs.«154465_j41790031790867_2_alg».proof.Proof.Gen.KernelIdeal.Launch
import proofs.«154465_j41790031790867_2_alg».proof.Proof.Gen.KernelIdeal.Points
import proofs.«154465_j41790031790867_2_alg».proof.Proof.KernelIdealFrame
import proofs.«154465_j41790031790867_2_alg».proof.Proof.Gen.ReferenceIdeal
import proofs.«154465_j41790031790867_2_alg».proof.Proof.Gen.ReferenceIdeal.Run
import proofs.«154465_j41790031790867_2_alg».proof.Proof.Gen.ReferenceIdeal.Read
import proofs.«154465_j41790031790867_2_alg».proof.Proof.Gen.Pre_finite_inputs
import proofs.«154465_j41790031790867_2_alg».proof.Proof.Distance
import proofs.«154465_j41790031790867_2_alg».proof.Proof.Finite
import proofs.«154465_j41790031790867_2_alg».proof.Proof.RefValue
import proofs.«154465_j41790031790867_2_alg».proof.Proof.Tiling
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel : Cert.frame_Kernel := fun m ρ _ => Cert.Kernel.GenP.frame m ρ

/-- So does the kernel read over the extended reals. -/
theorem frame_kernelIdeal : Cert.frame_KernelIdeal := fun m ρ _ => Cert.KernelIdeal.GenP.frame m ρ

/-- The reference is a straight line of host operations: it runs, and its argument is never written. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- From arguments that agree and are real numbers, the kernel's result array is the masked array of negated
    distances, the reference's is the array from the Gram matrix, and the two are one array. -/
theorem algebraic : Cert.algebraic_KernelIdeal_ReferenceIdeal := by
  intro m ρ m' ρ' hpre hagree
  refine ⟨fun c => Cert.Distance.maskedArr (m ((c.tc : Thread Cert.KernelIdeal.nD Cert.KernelIdeal.τ).loc Cert.KernelIdeal.main_arg0)),
    Cert.KernelIdeal.Tiling.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq, hagree c]
  exact (Cert.Distance.maskedArr_eq_ofGramArr _ (Cert.Pre_finite_inputs.Finite.real_of_pre _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
